-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel

variable [Facts]

def fn {F : FTy → Type} [FloatOps F] (main_arg0 : FVec F S131072x512 .f32) (main_arg1 : FVec F S131072x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  main_v8
-- ==== Kernel.lean ====
abbrev S131072x512 : Shape := ⟨2, ![131072, 512]⟩
abbrev S131072x1024 : Shape := ⟨2, ![131072, 1024]⟩
abbrev S256x512 : Shape := ⟨2, ![256, 512]⟩
abbrev S256x1024 : Shape := ⟨2, ![256, 1024]⟩
abbrev S256x32x16 : Shape := ⟨3, ![256, 32, 16]⟩
abbrev S256x32x32 : Shape := ⟨3, ![256, 32, 32]⟩
abbrev S256x32 : Shape := ⟨2, ![256, 32]⟩
abbrev S256x32x1 : Shape := ⟨3, ![256, 32, 1]⟩
abbrev S131072x32x16 : Shape := ⟨3, ![131072, 32, 16]⟩

abbrev nBuf : Space → Nat
  | .hbm => 5
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S131072x512, .f32⟩
  | .hbm, ⟨3, _⟩ => ⟨S131072x1024, .f32⟩
  | .hbm, ⟨4, _⟩ => ⟨S131072x32x16, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  shapeCasts_S256x512_S256x32x16 : S256x512.ShapeCasts S256x32x16
  reduces_S256x32x32_S256x32 : S256x32x32.Reduces [2] S256x32
  shapeCasts_S256x32_S256x32x1 : S256x32.ShapeCasts S256x32x1
  broadcasts_S256x32x1_S256x32x32 : S256x32x1.Broadcasts S256x32x32
  shapeCasts_S256x32x16_S256x512 : S256x32x16.ShapeCasts S256x512
  shapeCasts_S256x32x32_S256x1024 : S256x32x32.ShapeCasts S256x1024
  inb_S256x1024_S256x1024_0_0 : ∀ a, (![0, 0] : Fin 2 → Nat) a + S256x1024.size a ≤ S256x1024.size a
  h_S256x1024 : 0 < S256x1024.numel
  shapeCasts_S131072x512_S131072x32x16 : S131072x512.ShapeCasts S131072x32x16
  dot_S256x32x16_S256x32x16_S256x32x32_2_2_1_1_0_0_wf : DotDims.WF S256x32x16 S256x32x16 S256x32x32 [2] [2] [1] [1] [0] [0]
  dot_S256x32x32_S256x32x16_S256x32x16_2_1_1_2_0_0_wf : DotDims.WF S256x32x32 S256x32x16 S256x32x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S131072x512.size a
  hwx0_0 : ∀ i : grid0.Coords, EltTy.bits .f32 = 32 ∨ (Rect.block (s := S131072x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S131072x512.size a
  hwx0_1 : ∀ i : grid0.Coords, EltTy.bits .f32 = 32 ∨ (Rect.block (s := S131072x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S131072x512.size a
  hwx0_2 : ∀ i : grid0.Coords, EltTy.bits .f32 = 32 ∨ (Rect.block (s := S131072x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S131072x1024.size a
  hwx0_3 : ∀ i : grid0.Coords, EltTy.bits .f32 = 32 ∨ (Rect.block (s := S131072x1024) S256x1024.size (cc0_transform_3 i) (hinb0_3 i)).WholeWords (EltTy.packing .f32)

variable [Facts₀]

def dot_S256x32x16_S256x32x16_S256x32x32_2_2_1_1_0_0 : DotDims S256x32x16 S256x32x16 S256x32x32 where
  lhsContracting := [2]
  rhsContracting := [2]
  lhsNonContracting := [1]
  rhsNonContracting := [1]
  lhsBatch := [0]
  rhsBatch := [0]
  wf := dot_S256x32x16_S256x32x16_S256x32x32_2_2_1_1_0_0_wf
def dot_S256x32x32_S256x32x16_S256x32x16_2_1_1_2_0_0 : DotDims S256x32x32 S256x32x16 S256x32x16 where
  lhsContracting := [2]
  rhsContracting := [1]
  lhsNonContracting := [1]
  rhsNonContracting := [2]
  lhsBatch := [0]
  rhsBatch := [0]
  wf := dot_S256x32x32_S256x32x16_S256x32x16_2_1_1_2_0_0_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072x32x16 : Shape := ⟨3, ![131072, 32, 16]⟩
abbrev S131072x32x32 : Shape := ⟨3, ![131072, 32, 32]⟩
abbrev S_ : Shape := ⟨0, ![]⟩
abbrev S131072x32 : Shape := ⟨2, ![131072, 32]⟩
abbrev S131072x32x1 : Shape := ⟨3, ![131072, 32, 1]⟩
abbrev S131072x1024 : Shape := ⟨2, ![131072, 1024]⟩

abbrev nBuf : Space → Nat
  | .hbm => 21
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S131072x32x16, .f32⟩
  | .hbm, ⟨3, _⟩ => ⟨S131072x32x16, .f32⟩
  | .hbm, ⟨4, _⟩ => ⟨S131072x32x32, .f32⟩
  | .hbm, ⟨5, _⟩ => ⟨S_, .f32⟩
  | .hbm, ⟨6, _⟩ => ⟨S131072x32, .f32⟩
  | .hbm, ⟨7, _⟩ => ⟨S_, .f32⟩
  | .hbm, ⟨8, _⟩ => ⟨S131072x32, .f32⟩
  | .hbm, ⟨9, _⟩ => ⟨S131072x32, .f32⟩
  | .hbm, ⟨10, _⟩ => ⟨S131072x32x1, .f32⟩
  | .hbm, ⟨11, _⟩ => ⟨S131072x32x32, .f32⟩
  | .hbm, ⟨12, _⟩ => ⟨S131072x32x32, .f32⟩
  | .hbm, ⟨13, _⟩ => ⟨S131072x32x32, .f32⟩
  | .hbm, ⟨14, _⟩ => ⟨S_, .f32⟩
  | .hbm, ⟨15, _⟩ => ⟨S131072x32, .f32⟩
  | .hbm, ⟨16, _⟩ => ⟨S131072x32x1, .f32⟩
  | .hbm, ⟨17, _⟩ => ⟨S131072x32x32, .f32⟩
  | .hbm, ⟨18, _⟩ => ⟨S131072x32x32, .f32⟩
  | .hbm, ⟨19, _⟩ => ⟨S131072x32x16, .f32⟩
  | .hbm, ⟨20, _⟩ => ⟨S131072x1024, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S131072x512_S131072x32x16 : S131072x512.ShapeCasts S131072x32x16
  reducesTo_S131072x32x32_S131072x32_d2 : S131072x32x32.ReducesTo [2] S131072x32
  h_S_ : 0 < S_.numel
  bcast_S_S131072x32 : S_.BroadcastsInDim S131072x32 (![] : Fin 0 → Fin S131072x32.rank)
  bcast_S131072x32_S131072x32x1_0_1 : S131072x32.BroadcastsInDim S131072x32x1 (![0, 1] : Fin 2 → Fin S131072x32x1.rank)
  bcast_S131072x32x1_S131072x32x32_0_1_2 : S131072x32x1.BroadcastsInDim S131072x32x32 (![0, 1, 2] : Fin 3 → Fin S131072x32x32.rank)
  shapeCasts_S131072x32x32_S131072x1024 : S131072x32x32.ShapeCasts S131072x1024
  dot_S131072x32x16_S131072x32x16_S131072x32x32_2_2_1_1_0_0_wf : DotDims.WF S131072x32x16 S131072x32x16 S131072x32x32 [2] [2] [1] [1] [0] [0]
  dot_S131072x32x32_S131072x32x16_S131072x32x16_2_1_1_2_0_0_wf : DotDims.WF S131072x32x32 S131072x32x16 S131072x32x16 [2] [1] [1] [2] [0] [0]

variable [Facts₀]

def dot_S131072x32x16_S131072x32x16_S131072x32x32_2_2_1_1_0_0 : DotDims S131072x32x16 S131072x32x16 S131072x32x32 where
  lhsContracting := [2]
  rhsContracting := [2]
  lhsNonContracting := [1]
  rhsNonContracting := [1]
  lhsBatch := [0]
  rhsBatch := [0]
  wf := dot_S131072x32x16_S131072x32x16_S131072x32x32_2_2_1_1_0_0_wf
def dot_S131072x32x32_S131072x32x16_S131072x32x16_2_1_1_2_0_0 : DotDims S131072x32x32 S131072x32x16 S131072x32x16 where
  lhsContracting := [2]
  rhsContracting := [1]
  lhsNonContracting := [1]
  rhsNonContracting := [2]
  lhsBatch := [0]
  rhsBatch := [0]
  wf := dot_S131072x32x32_S131072x32x16_S131072x32x16_2_1_1_2_0_0_wf

class Facts : Prop extends Facts₀ where

variable [Facts]
-- ==== Proof.RowAttention.lean ====
/-
  One row of scaled-free dot-product attention, on the extended reals.

  A row of the query array and a row of the value array are 512 numbers each, read as 32 heads of 16
  features: head `i`, feature `d` sits at position `16 i + d`. For such a pair of rows `q`, `v`:

    score i k   = Σ_d q(16 i + d) · v(16 k + d)                      (32 × 32 numbers)
    rowMax i    = max(-∞, max_k score i k)                           (the running maximum starts at -∞)
    expo i k    = exp (score i k - rowMax i)
    denom i     = Σ_k expo i k
    weight i k  = expo i k / denom i                                  (the softmax over the keys k)
    context i d = Σ_k weight i k · v(16 k + d)                        (32 × 16 numbers)

  Every operation is the exact one on the extended reals (`Ideal.exp`, `Ideal.div`, `max`, `+`, `·`), so the
  definitions make sense at the infinities too and nothing here asks the rows to be finite. The whole-batch
  results are these functions row by row: `weights` as a [B, 1024] array (position `32 i + k` of row `r`),
  `contextFlat` as a [B, 512] array (position `16 i + d`) and `contexts` as a [B, 32, 16] array.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RowAttention

open Idealize.ShloMosaic Idealize.ShloMosaic.ValueIdx

/-- Head `i`, feature `d` of a 512-wide row sits at position `16 i + d`. -/
def at16 (i : Fin 32) (d : Fin 16) : Fin 512 :=
  ⟨i.val * 16 + d.val, by have := i.isLt; have := d.isLt; omega⟩

theorem at16_val (i : Fin 32) (d : Fin 16) : (at16 i d).val = i.val * 16 + d.val := rfl

/-- Row `r` of a two-dimensional array. -/
def rowOf {R C : Nat} (x : (⟨2, ![R, C]⟩ : Shape).Idx → EReal) (r : Fin R) : Fin C → EReal :=
  fun j => x (ix2 r j)

theorem rowOf_apply {R C : Nat} (x : (⟨2, ![R, C]⟩ : Shape).Idx → EReal) (r : Fin R) (j : Fin C) :
    rowOf x r j = x (ix2 r j) := rfl

/-- The value the running maximum starts from: the word of `-∞`, kept as a word (both programs spell it so). -/
abbrev negInf : EReal := Ideal.ofBits .f32 0xFF800000#32

/-- The inner product of query head `i` with key head `k`. -/
def score (q v : Fin 512 → EReal) (i k : Fin 32) : EReal :=
  ∑ d : Fin 16, q (at16 i d) * v (at16 k d)

/-- The largest score of query head `i` over the keys, the maximum taken from `-∞` (and once more against `-∞`,
    as both programs do). -/
def rowMax (q v : Fin 512 → EReal) (i : Fin 32) : EReal :=
  max negInf ((Finset.univ : Finset (Fin 32)).fold max negInf (fun k => score q v i k))

/-- The shifted exponential. -/
def expo (q v : Fin 512 → EReal) (i k : Fin 32) : EReal :=
  Ideal.exp (score q v i k - rowMax q v i)

/-- The softmax's denominator. -/
def denom (q v : Fin 512 → EReal) (i : Fin 32) : EReal :=
  ∑ k : Fin 32, expo q v i k

/-- The attention weight of key `k` for query `i`. -/
def weight (q v : Fin 512 → EReal) (i k : Fin 32) : EReal :=
  Ideal.div (expo q v i k) (denom q v i)

/-- The weighted sum of the value heads. -/
def context (q v : Fin 512 → EReal) (i : Fin 32) (d : Fin 16) : EReal :=
  ∑ k : Fin 32, weight q v i k * v (at16 k d)

/-! ## The whole batch -/

/-- The attention weights of every row, as a [B, 1024] array: row `r`, position `32 i + k`. -/
def weights {B : Nat} (Q V : (⟨2, ![B, 512]⟩ : Shape).Idx → EReal) : (⟨2, ![B, 1024]⟩ : Shape).Idx → EReal :=
  fun j => weight (rowOf Q ⟨(j 0).val, idx2_lt0 j⟩) (rowOf V ⟨(j 0).val, idx2_lt0 j⟩)
    ⟨(j 1).val / 32, by have := idx2_lt1 j; omega⟩ ⟨(j 1).val % 32, by omega⟩

/-- The contexts of every row, as a [B, 512] array: row `r`, position `16 i + d`. -/
def contextFlat {B : Nat} (Q V : (⟨2, ![B, 512]⟩ : Shape).Idx → EReal) : (⟨2, ![B, 512]⟩ : Shape).Idx → EReal :=
  fun j => context (rowOf Q ⟨(j 0).val, idx2_lt0 j⟩) (rowOf V ⟨(j 0).val, idx2_lt0 j⟩)
    ⟨(j 1).val / 16, by have := idx2_lt1 j; omega⟩ ⟨(j 1).val % 16, by omega⟩

/-- The contexts of every row, as a [B, 32, 16] array. -/
def contexts {B : Nat} (Q V : (⟨2, ![B, 512]⟩ : Shape).Idx → EReal) : (⟨3, ![B, 32, 16]⟩ : Shape).Idx → EReal :=
  fun j => context (rowOf Q ⟨(j 0).val, (j 0).isLt⟩) (rowOf V ⟨(j 0).val, (j 0).isLt⟩)
    ⟨(j 1).val, (j 1).isLt⟩ ⟨(j 2).val, (j 2).isLt⟩

/-- The [B, 512] array of contexts, viewed [B, 32, 16], is the [B, 32, 16] array of contexts: position
    `16 i + d` of a row is head `i`, feature `d`. -/
theorem shapeCast_contextFlat {B : Nat} (Q V : (⟨2, ![B, 512]⟩ : Shape).Idx → EReal)
    (h : (⟨2, ![B, 512]⟩ : Shape).ShapeCasts ⟨3, ![B, 32, 16]⟩) :
    shapeCast ⟨3, ![B, 32, 16]⟩ (contextFlat Q V) h = contexts Q V := by
  funext j
  have h1 : (j 1).val < 32 := (j 1).isLt
  have h2 : (j 2).val < 16 := (j 2).isLt
  rw [shapeCast_apply (contextFlat Q V) h j
    (ix2 ⟨(j 0).val, (j 0).isLt⟩ ⟨(j 1).val * 16 + (j 2).val, by omega⟩)
    (by rewrite [Shape.rowMajor_val_two, Shape.rowMajor_val_three]
        show (j 0).val * 512 + ((j 1).val * 16 + (j 2).val) = ((j 0).val * 32 + (j 1).val) * 16 + (j 2).val
        omega)]
  unfold contextFlat contexts
  have e1 : (⟨((j 1).val * 16 + (j 2).val) / 16, by omega⟩ : Fin 32) = ⟨(j 1).val, (j 1).isLt⟩ :=
    Fin.ext (by show ((j 1).val * 16 + (j 2).val) / 16 = (j 1).val; omega)
  have e2 : (⟨((j 1).val * 16 + (j 2).val) % 16, by omega⟩ : Fin 16) = ⟨(j 2).val, (j 2).isLt⟩ :=
    Fin.ext (by show ((j 1).val * 16 + (j 2).val) % 16 = (j 2).val; omega)
  show context _ _ ⟨((j 1).val * 16 + (j 2).val) / 16, _⟩ ⟨((j 1).val * 16 + (j 2).val) % 16, _⟩ = _
  rw [e1, e2]
  rfl

end Cert.RowAttention

end
-- ==== Proof.ReferenceRows.lean ====
/-
  The reference computes the attention of `RowAttention`, row by row.

  The reference views each argument [131072, 512] as [131072, 32, 16] (row `r`, head `i`, feature `d` is position
  `16 i + d` of row `r`), contracts the feature axis of the two views batch by batch (the scores), takes the
  maximum over the keys from `-∞`, exponentiates the shifted scores, sums them from `0`, divides, and
  contracts the key axis of the weights with the value view. Read at an index, every stage only involves
  row `r` of the two arguments, and is the corresponding function of that row pair:

    stage %2  at (r, i, k)  = score  i k        stage %5  at (r, i)    = rowMax i
    stage %9  at (r, i, k)  = expo   i k        stage %10 at (r, i)    = denom  i   (`0 + Σ` is `Σ`)
    stage %13 at (r, i, k)  = weight i k        stage %14 at (r, i, d) = context i d
    stage %15 at (r, 32 i + k) = weight i k     (the weights viewed [131072, 1024])

  The contraction sums and the sum over keys are the generated read-at-an-index lemmas; the maximum over keys,
  which those do not read, is the fold of `max` over the key coordinate from the initial value.
-/
import proofs.«118392_j59081570125023_1_alg».proof.Proof.Gen.ReferenceIdeal.Read
import proofs.«118392_j59081570125023_1_alg».proof.Proof.RowAttention
import Idealize.ShloMosaic.PureOps.Reduce

noncomputable section

open scoped BigOperators

namespace Cert.ReferenceIdeal.RefRows

open Cert.ReferenceIdeal Cert.ReferenceIdeal.Gen Cert.ReferenceIdeal.Read Cert.RowAttention
open Idealize.ShloMosaic Idealize.ShloMosaic.ValueIdx

variable (x0 x1 : (⟨2, ![131072, 512]⟩ : Shape).Idx → EReal)

/-- The reshaped query at (r, i, d) is position `16 i + d` of row `r`. -/
theorem v0_at (r : Fin 131072) (i : Fin 32) (d : Fin 16) :
    val_main_v0 (F := Ideal) x0 (ix3 r i d) = rowOf x0 r (at16 i d) := by
  rw [val_main_v0_apply]
  refine congrArg x0 (funext fun a => Fin.ext ?_)
  have hi := i.isLt; have hd := d.isLt
  match a with
  | ⟨0, _⟩ => show ((r.val * 32 + i.val) * 16 + d.val) / 512 = r.val; omega
  | ⟨1, _⟩ => show ((r.val * 32 + i.val) * 16 + d.val) % 512 = i.val * 16 + d.val; omega

/-- The reshaped value at (r, k, d) is position `16 k + d` of row `r`. -/
theorem v1_at (r : Fin 131072) (k : Fin 32) (d : Fin 16) :
    val_main_v1 (F := Ideal) x1 (ix3 r k d) = rowOf x1 r (at16 k d) := by
  rw [val_main_v1_apply]
  refine congrArg x1 (funext fun a => Fin.ext ?_)
  have hk := k.isLt; have hd := d.isLt
  match a with
  | ⟨0, _⟩ => show ((r.val * 32 + k.val) * 16 + d.val) / 512 = r.val; omega
  | ⟨1, _⟩ => show ((r.val * 32 + k.val) * 16 + d.val) % 512 = k.val * 16 + d.val; omega

/-- The first contraction at (r, i, k): the score of query head `i` and key head `k` of row `r`. -/
theorem v2_at (r : Fin 131072) (i k : Fin 32) :
    val_main_v2 (F := Ideal) x0 x1 (ix3 r i k) = score (rowOf x0 r) (rowOf x1 r) i k := by
  rw [val_main_v2_apply]
  unfold score
  refine Finset.sum_congr rfl fun d _ => ?_
  have el : lidx_main_v2 (ix3 r i k) d = ix3 r i d :=
    funext fun a => by match a with | ⟨0, _⟩ => rfl | ⟨1, _⟩ => rfl | ⟨2, _⟩ => rfl
  have er : ridx_main_v2 (ix3 r i k) d = ix3 r k d :=
    funext fun a => by match a with | ⟨0, _⟩ => rfl | ⟨1, _⟩ => rfl | ⟨2, _⟩ => rfl
  rw [el, er, v0_at, v1_at]

/-- The key axis is the one the two reductions drop. -/
theorem reduces_keys : S131072x32x32.Reduces [2] S131072x32 := by decide

/-- Inserting key `k` over (r, i) gives (r, i, k). -/
theorem lift_keys (r : Fin 131072) (i k : Fin 32) : reduces_keys.lift (ix2 r i) k = ix3 r i k :=
  funext fun a => Fin.ext (by match a with | ⟨0, _⟩ => rfl | ⟨1, _⟩ => rfl | ⟨2, _⟩ => rfl)

/-- The maximum over the keys at (r, i): the fold of `max` from `-∞` over the scores of query head `i`. -/
theorem v3_at (r : Fin 131072) (i : Fin 32) :
    val_main_v3 (F := Ideal) x0 x1 (ix2 r i)
      = (Finset.univ : Finset (Fin 32)).fold max negInf (fun k => score (rowOf x0 r) (rowOf x1 r) i k) := by
  unfold val_main_v3
  rw [Host.reduce_eq_fold_single (FloatOps.maximumf (F := Ideal) (φ := .f32)) _ _
    reducesTo_S131072x32x32_S131072x32_d2 reduces_keys h_S_ (ix2 r i)]
  have hs : (val_main_v2 (F := Ideal) x0 x1 ∘ reduces_keys.lift (ix2 r i))
      = fun k : Fin 32 => score (rowOf x0 r) (rowOf x1 r) i k := funext fun (k : Fin 32) => by
    show val_main_v2 (F := Ideal) x0 x1 (reduces_keys.lift (ix2 r i) k) = _
    rw [lift_keys r i k, v2_at]
  rw [hs]
  rfl

/-- The maximum against `-∞` once more, at (r, i). -/
theorem v5_at (r : Fin 131072) (i : Fin 32) :
    val_main_v5 (F := Ideal) x0 x1 (ix2 r i) = rowMax (rowOf x0 r) (rowOf x1 r) i := by
  rw [val_main_v5_apply, val_main_v4_apply, val_main_cst_0_apply, v3_at]
  rfl

/-- Broadcast along the keys, at (r, i, k). -/
theorem v7_at (r : Fin 131072) (i k : Fin 32) :
    val_main_v7 (F := Ideal) x0 x1 (ix3 r i k) = rowMax (rowOf x0 r) (rowOf x1 r) i := by
  rw [val_main_v7_apply, val_main_v6_apply]
  have e : idx_main_v6 (idx_main_v7 (ix3 r i k)) = ix2 r i :=
    funext fun a => by match a with | ⟨0, _⟩ => rfl | ⟨1, _⟩ => rfl
  rw [e, v5_at]

/-- The shifted exponential at (r, i, k). -/
theorem v9_at (r : Fin 131072) (i k : Fin 32) :
    val_main_v9 (F := Ideal) x0 x1 (ix3 r i k) = expo (rowOf x0 r) (rowOf x1 r) i k := by
  rw [val_main_v9_apply, val_main_v8_apply, v2_at, v7_at]
  rfl

/-- The sum over the keys at (r, i); the initial value is the zero word. -/
theorem v10_at (r : Fin 131072) (i : Fin 32) :
    val_main_v10 (F := Ideal) x0 x1 (ix2 r i) = denom (rowOf x0 r) (rowOf x1 r) i := by
  rw [val_main_v10_apply, val_main_cst_1_apply]
  show Ideal.ofBits .f32 0x00000000#32 + _ = _
  rw [Ideal.ofBits_zero_f32, zero_add]
  unfold denom
  refine Finset.sum_congr rfl fun k _ => ?_
  have e : idx_main_v10 (ix2 r i) k = ix3 r i k :=
    funext fun a => by match a with | ⟨0, _⟩ => rfl | ⟨1, _⟩ => rfl | ⟨2, _⟩ => rfl
  rw [e, v9_at]

/-- Broadcast along the keys, at (r, i, k). -/
theorem v12_at (r : Fin 131072) (i k : Fin 32) :
    val_main_v12 (F := Ideal) x0 x1 (ix3 r i k) = denom (rowOf x0 r) (rowOf x1 r) i := by
  rw [val_main_v12_apply, val_main_v11_apply]
  have e : idx_main_v11 (idx_main_v12 (ix3 r i k)) = ix2 r i :=
    funext fun a => by match a with | ⟨0, _⟩ => rfl | ⟨1, _⟩ => rfl
  rw [e, v10_at]

/-- The attention weight at (r, i, k). -/
theorem v13_at (r : Fin 131072) (i k : Fin 32) :
    val_main_v13 (F := Ideal) x0 x1 (ix3 r i k) = weight (rowOf x0 r) (rowOf x1 r) i k := by
  rw [val_main_v13_apply, v9_at, v12_at]
  rfl

/-- The second contraction at (r, i, d): the context of query head `i`, feature `d`. -/
theorem v14_at (r : Fin 131072) (i : Fin 32) (d : Fin 16) :
    val_main_v14 (F := Ideal) x0 x1 (ix3 r i d) = context (rowOf x0 r) (rowOf x1 r) i d := by
  rw [val_main_v14_apply]
  unfold context
  refine Finset.sum_congr rfl fun k _ => ?_
  have el : lidx_main_v14 (ix3 r i d) k = ix3 r i k :=
    funext fun a => by match a with | ⟨0, _⟩ => rfl | ⟨1, _⟩ => rfl | ⟨2, _⟩ => rfl
  have er : ridx_main_v14 (ix3 r i d) k = ix3 r k d :=
    funext fun a => by match a with | ⟨0, _⟩ => rfl | ⟨1, _⟩ => rfl | ⟨2, _⟩ => rfl
  rw [el, er, v13_at, v1_at]

/-- The weights viewed [131072, 1024], at (r, p): query head `p / 32`, key head `p % 32`. -/
theorem v15_at (r : Fin 131072) (p : Fin 1024) :
    val_main_v15 (F := Ideal) x0 x1 (ix2 r p)
      = weight (rowOf x0 r) (rowOf x1 r) ⟨p.val / 32, by have := p.isLt; omega⟩ ⟨p.val % 32, by omega⟩ := by
  rw [val_main_v15_apply]
  have hp := p.isLt
  have e : idx_main_v15 (ix2 r p) = ix3 r ⟨p.val / 32, by omega⟩ ⟨p.val % 32, by omega⟩ :=
    funext fun a => Fin.ext (by
      match a with
      | ⟨0, _⟩ => show (r.val * 1024 + p.val) / 1024 = r.val; omega
      | ⟨1, _⟩ => show (r.val * 1024 + p.val) / 32 % 32 = p.val / 32; omega
      | ⟨2, _⟩ => show (r.val * 1024 + p.val) % 32 = p.val % 32; omega)
  rw [e, v13_at]

/-! ## The two results, as whole arrays -/

/-- The reference's first result is the array of contexts. -/
theorem contexts_eq : val_main_v14 (F := Ideal) x0 x1 = contexts x0 x1 := by
  funext j
  obtain ⟨r, i, d, rfl⟩ : ∃ (r : Fin 131072) (i : Fin 32) (d : Fin 16), j = ix3 r i d := ⟨j 0, j 1, j 2, eq_ix3 j⟩
  rw [v14_at]
  rfl

/-- The reference's second result is the array of attention weights. -/
theorem weights_eq : val_main_v15 (F := Ideal) x0 x1 = weights x0 x1 := by
  funext j
  obtain ⟨r, p, rfl⟩ : ∃ (r : Fin 131072) (p : Fin 1024), j = ix2 r p := ⟨j 0, j 1, eq_ix2 j⟩
  rw [v15_at]
  rfl

end Cert.ReferenceIdeal.RefRows

end
-- ==== Proof.KernelRows.lean ====
/-
  What the kernel body computes on one block of 256 rows is the attention of `RowAttention`, row by row.

  The body loads a block `x0` of the query array and a block `x1` of the value array, both [256, 512], views each as
  [256, 32, 16] (row `b`, head `i`, feature `d` is position `16 i + d` of row `b`; the change of float format in between is
  the identity on extended reals), multiplies the two views batch by batch into a zero accumulator (the scores), takes
  the maximum over the keys from `-∞`, exponentiates the shifted scores, sums them over the keys, divides, and multiplies
  the weights with the value view, again into a zero accumulator. It stores the contexts viewed [256, 512] and the
  weights viewed [256, 1024].

  Read at an index, each intermediate value depends on row `b` of the two blocks only:

    scores  at (b, i, k) = score  i k          maxima at (b, i) = rowMax i
    exps    at (b, i, k) = expo   i k          sums   at (b, i) = denom  i
    weights at (b, i, k) = weight i k
    the first store  at (b, 16 i + d) = context i d
    the second store at (b, 32 i + k) = weight  i k

  A product into a zero accumulator is the plain sum over the contracted coordinate; a maximum or a sum over the key
  axis is the fold of `max` from the starting value, or the sum, over the key coordinate; the keepdims column
  [256, 32] → [256, 32, 1] → [256, 32, 32] reads (b, i) at every key.
-/
import proofs.«118392_j59081570125023_1_alg».proof.Proof.Gen.KernelIdeal.Skeleton
import proofs.«118392_j59081570125023_1_alg».proof.Proof.RowAttention
import Idealize.ShloMosaic.Lib.Pipeline.Value
import Idealize.ShloMosaic.Lib.ValueIdx
import Idealize.ShloMosaic.PureOps.Ideal.Laws

noncomputable section

open scoped BigOperators

namespace Cert.KernelIdeal.Rows

open Cert.KernelIdeal Cert.KernelIdeal.Gen Cert.RowAttention
open Idealize.ShloMosaic Idealize.ShloMosaic.ValueIdx

/-! ## The layout operations at an index -/

/-- A [256, 512] block viewed [256, 32, 16], at (b, i, d): position `16 i + d` of row `b`. -/
theorem heads_at (x : FVec Ideal S256x512 .f32) (b : Fin 256) (i : Fin 32) (d : Fin 16) :
    shapeCast S256x32x16 (truncf .bf16 x bitsLt_bf16_f32) shapeCasts_S256x512_S256x32x16 (ix3 b i d)
      = rowOf x b (at16 i d) := by
  have hi := i.isLt; have hd := d.isLt
  exact shapeCast_apply _ shapeCasts_S256x512_S256x32x16 (ix3 b i d) (ix2 b (at16 i d))
    (by rewrite [Shape.rowMajor_val_two, Shape.rowMajor_val_three]
        show b.val * 512 + (i.val * 16 + d.val) = (b.val * 32 + i.val) * 16 + d.val
        omega)

/-- The value view the body computes once and uses in both products. -/
theorem pay1_at (x : FVec Ideal S256x512 .f32) (b : Fin 256) (k : Fin 32) (d : Fin 16) :
    k0_pay1 (F := Ideal) x (ix3 b k d) = rowOf x b (at16 k d) :=
  heads_at x b k d

/-- A column [256, 32] kept as [256, 32, 1] and repeated along the keys reads (b, i) at every key. -/
theorem alongKeys_at (c : FVec Ideal S256x32 .f32) (b : Fin 256) (i k : Fin 32) :
    broadcastTo S256x32x32 (shapeCast S256x32x1 c shapeCasts_S256x32_S256x32x1) broadcasts_S256x32x1_S256x32x32 (ix3 b i k)
      = c (ix2 b i) := by
  refine (broadcastTo_apply _ broadcasts_S256x32x1_S256x32x32 (ix3 b i k) (ix3 b i (0 : Fin 1)) ?_).trans ?_
  · intro a
    match a with
    | ⟨0, _⟩ => show b.val = if (256 : Nat) = 1 then 0 else b.val; rw [if_neg (by decide)]
    | ⟨1, _⟩ => show i.val = if (32 : Nat) = 1 then 0 else i.val; rw [if_neg (by decide)]
    | ⟨2, _⟩ => show 0 = if (1 : Nat) = 1 then 0 else k.val; rw [if_pos rfl]
  · exact shapeCast_apply c shapeCasts_S256x32_S256x32x1 (ix3 b i (0 : Fin 1)) (ix2 b i)
      (by rewrite [Shape.rowMajor_val_two, Shape.rowMajor_val_three]
          show b.val * 32 + i.val = (b.val * 32 + i.val) * 1 + 0
          omega)

/-! ## The two products at an index -/

/-- Scores: batch axis 0, the feature axis of both operands contracted. -/
abbrev dQK : DotDims S256x32x16 S256x32x16 S256x32x32 := dot_S256x32x16_S256x32x16_S256x32x32_2_2_1_1_0_0
/-- Contexts: batch axis 0, the key axis of the weights contracted with the key axis of the values. -/
abbrev dAV : DotDims S256x32x32 S256x32x16 S256x32x16 := dot_S256x32x32_S256x32x16_S256x32x16_2_1_1_2_0_0

theorem qk_lhs0 (j : S256x32x32.Idx) (q : dQK.contr.Idx) : (dQK.lhsIdx j q 0).val = (j 0).val := by
  unfold DotDims.lhsIdx
  rw [dif_pos (show (0 : Fin S256x32x16.rank) ∈ dQK.lhsBatch by decide)]
  rfl
theorem qk_lhs1 (j : S256x32x32.Idx) (q : dQK.contr.Idx) : (dQK.lhsIdx j q 1).val = (j 1).val := by
  unfold DotDims.lhsIdx
  rw [dif_neg (show ¬(1 : Fin S256x32x16.rank) ∈ dQK.lhsBatch by decide),
    dif_pos (show (1 : Fin S256x32x16.rank) ∈ dQK.lhsNonContracting by decide)]
  rfl
theorem qk_lhs2 (j : S256x32x32.Idx) (q : dQK.contr.Idx) : (dQK.lhsIdx j q 2).val = (q ⟨0, by decide⟩).val :=
  dQK.lhsIdx_val_of_single rfl j q
theorem qk_rhs0 (j : S256x32x32.Idx) (q : dQK.contr.Idx) : (dQK.rhsIdx j q 0).val = (j 0).val := by
  unfold DotDims.rhsIdx
  rw [dif_pos (show (0 : Fin S256x32x16.rank) ∈ dQK.rhsBatch by decide)]
  rfl
theorem qk_rhs1 (j : S256x32x32.Idx) (q : dQK.contr.Idx) : (dQK.rhsIdx j q 1).val = (j 2).val := by
  unfold DotDims.rhsIdx
  rw [dif_neg (show ¬(1 : Fin S256x32x16.rank) ∈ dQK.rhsBatch by decide),
    dif_pos (show (1 : Fin S256x32x16.rank) ∈ dQK.rhsNonContracting by decide)]
  rfl
theorem qk_rhs2 (j : S256x32x32.Idx) (q : dQK.contr.Idx) : (dQK.rhsIdx j q 2).val = (q ⟨0, by decide⟩).val :=
  dQK.rhsIdx_val_of_single rfl j q

/-- The product of two [256, 32, 16] views over their feature axis, into zero, at (b, i, k). -/
theorem scores_at (L R : FVec Ideal S256x32x16 .bf16) (b : Fin 256) (i k : Fin 32) :
    matmul dQK none L R (constant (F := Ideal) S256x32x32 .f32 0x00000000#32) (ix3 b i k)
      = ∑ d : Fin 16, L (ix3 b i d) * R (ix3 b k d) := by
  refine (Ideal.matmul_constant_zero_apply dQK none L R (ix3 b i k)).trans ?_
  rw [← Equiv.sum_comp (contrEquiv1 dQK 16 rfl rfl).symm]
  refine Finset.sum_congr rfl fun d _ => ?_
  have hk := contrEquiv1_symm_val dQK 16 rfl rfl d
  have el : dQK.lhsIdx (ix3 b i k) ((contrEquiv1 dQK 16 rfl rfl).symm d) = ix3 b i d := funext fun a => Fin.ext (by
    match a with
    | ⟨0, _⟩ => exact qk_lhs0 _ _
    | ⟨1, _⟩ => exact qk_lhs1 _ _
    | ⟨2, _⟩ => exact (qk_lhs2 _ _).trans hk)
  have er : dQK.rhsIdx (ix3 b i k) ((contrEquiv1 dQK 16 rfl rfl).symm d) = ix3 b k d := funext fun a => Fin.ext (by
    match a with
    | ⟨0, _⟩ => exact qk_rhs0 _ _
    | ⟨1, _⟩ => exact qk_rhs1 _ _
    | ⟨2, _⟩ => exact (qk_rhs2 _ _).trans hk)
  rw [el, er]

theorem av_lhs0 (j : S256x32x16.Idx) (q : dAV.contr.Idx) : (dAV.lhsIdx j q 0).val = (j 0).val := by
  unfold DotDims.lhsIdx
  rw [dif_pos (show (0 : Fin S256x32x32.rank) ∈ dAV.lhsBatch by decide)]
  rfl
theorem av_lhs1 (j : S256x32x16.Idx) (q : dAV.contr.Idx) : (dAV.lhsIdx j q 1).val = (j 1).val := by
  unfold DotDims.lhsIdx
  rw [dif_neg (show ¬(1 : Fin S256x32x32.rank) ∈ dAV.lhsBatch by decide),
    dif_pos (show (1 : Fin S256x32x32.rank) ∈ dAV.lhsNonContracting by decide)]
  rfl
theorem av_lhs2 (j : S256x32x16.Idx) (q : dAV.contr.Idx) : (dAV.lhsIdx j q 2).val = (q ⟨0, by decide⟩).val :=
  dAV.lhsIdx_val_of_single rfl j q
theorem av_rhs0 (j : S256x32x16.Idx) (q : dAV.contr.Idx) : (dAV.rhsIdx j q 0).val = (j 0).val := by
  unfold DotDims.rhsIdx
  rw [dif_pos (show (0 : Fin S256x32x16.rank) ∈ dAV.rhsBatch by decide)]
  rfl
theorem av_rhs1 (j : S256x32x16.Idx) (q : dAV.contr.Idx) : (dAV.rhsIdx j q 1).val = (q ⟨0, by decide⟩).val :=
  dAV.rhsIdx_val_of_single rfl j q
theorem av_rhs2 (j : S256x32x16.Idx) (q : dAV.contr.Idx) : (dAV.rhsIdx j q 2).val = (j 2).val := by
  unfold DotDims.rhsIdx
  rw [dif_neg (show ¬(2 : Fin S256x32x16.rank) ∈ dAV.rhsBatch by decide),
    dif_pos (show (2 : Fin S256x32x16.rank) ∈ dAV.rhsNonContracting by decide)]
  rfl

/-- The product of [256, 32, 32] weights with a [256, 32, 16] view over the key axis, into zero, at (b, i, d). -/
theorem mix_at (A : FVec Ideal S256x32x32 .bf16) (R : FVec Ideal S256x32x16 .bf16) (b : Fin 256) (i : Fin 32) (d : Fin 16) :
    matmul dAV none A R (constant (F := Ideal) S256x32x16 .f32 0x00000000#32) (ix3 b i d)
      = ∑ k : Fin 32, A (ix3 b i k) * R (ix3 b k d) := by
  refine (Ideal.matmul_constant_zero_apply dAV none A R (ix3 b i d)).trans ?_
  rw [← Equiv.sum_comp (contrEquiv1 dAV 32 rfl rfl).symm]
  refine Finset.sum_congr rfl fun k _ => ?_
  have hk := contrEquiv1_symm_val dAV 32 rfl rfl k
  have el : dAV.lhsIdx (ix3 b i d) ((contrEquiv1 dAV 32 rfl rfl).symm k) = ix3 b i k := funext fun a => Fin.ext (by
    match a with
    | ⟨0, _⟩ => exact av_lhs0 _ _
    | ⟨1, _⟩ => exact av_lhs1 _ _
    | ⟨2, _⟩ => exact (av_lhs2 _ _).trans hk)
  have er : dAV.rhsIdx (ix3 b i d) ((contrEquiv1 dAV 32 rfl rfl).symm k) = ix3 b k d := funext fun a => Fin.ext (by
    match a with
    | ⟨0, _⟩ => exact av_rhs0 _ _
    | ⟨1, _⟩ => exact (av_rhs1 _ _).trans hk
    | ⟨2, _⟩ => exact av_rhs2 _ _)
  rw [el, er]

/-! ## The two reductions over the keys at an index -/

/-- Inserting key `k` over (b, i) gives (b, i, k). -/
theorem lift_keys (b : Fin 256) (i k : Fin 32) : reduces_S256x32x32_S256x32.lift (ix2 b i) k = ix3 b i k :=
  funext fun a => Fin.ext (by match a with | ⟨0, _⟩ => rfl | ⟨1, _⟩ => rfl | ⟨2, _⟩ => rfl)

/-- The maximum over the keys from `-∞`, at (b, i). -/
theorem keyMax_at (s : FVec Ideal S256x32x32 .f32) (hφ : FKind.Formats .f32)
    (hacc : (0xFF800000#32 : BitVec 32) = FKind.maximumf.neutral .f32 hφ) (b : Fin 256) (i : Fin 32) :
    multiReduction (F := Ideal) .maximumf [2] S256x32 s 0xFF800000#32 reduces_S256x32x32_S256x32 hφ hacc (ix2 b i)
      = (Finset.univ : Finset (Fin 32)).fold max negInf (fun k => s (ix3 b i k)) := by
  refine (Ideal.multiReduction_maximumf_single s 0xFF800000#32 reduces_S256x32x32_S256x32 hφ hacc (ix2 b i)).trans ?_
  have e : (s ∘ reduces_S256x32x32_S256x32.lift (ix2 b i)) = fun k : Fin 32 => s (ix3 b i k) :=
    funext fun (k : Fin 32) => congrArg s (lift_keys b i k)
  rw [e]
  rfl

/-- The sum over the keys, at (b, i). -/
theorem keySum_at (s : FVec Ideal S256x32x32 .f32) (hφ : FKind.Formats .f32)
    (hacc : (0x00000000#32 : BitVec 32) = FKind.add.neutral .f32 hφ) (b : Fin 256) (i : Fin 32) :
    multiReduction (F := Ideal) .add [2] S256x32 s 0x00000000#32 reduces_S256x32x32_S256x32 hφ hacc (ix2 b i)
      = ∑ k : Fin 32, s (ix3 b i k) := by
  refine (Ideal.multiReduction_add_single s 0x00000000#32 reduces_S256x32x32_S256x32 hφ hacc (ix2 b i)).trans ?_
  exact Finset.sum_congr rfl fun (k : Fin 32) _ => congrArg s (lift_keys b i k)

/-! ## The body's intermediate values, named once -/

variable (x0 x1 : FVec Ideal S256x512 .f32)

/-- The scores of the block. -/
def blockScores : FVec Ideal S256x32x32 .f32 :=
  matmul dQK none (shapeCast S256x32x16 (truncf .bf16 x0 bitsLt_bf16_f32) shapeCasts_S256x512_S256x32x16) (k0_pay1 (F := Ideal) x1)
    (constant (F := Ideal) S256x32x32 .f32 0x00000000#32)

/-- The maxima over the keys. -/
def blockMax : FVec Ideal S256x32 .f32 :=
  maximumf (broadcast S256x32 (Scalar.ofBits (F := Ideal) .f32 0xFF800000#32))
    (multiReduction (F := Ideal) .maximumf [2] S256x32 (blockScores x0 x1) 0xFF800000#32 reduces_S256x32x32_S256x32 (.inl rfl) rfl)

/-- The shifted exponentials. -/
def blockExp : FVec Ideal S256x32x32 .f32 :=
  exp (subf (blockScores x0 x1)
    (broadcastTo S256x32x32 (shapeCast S256x32x1 (blockMax x0 x1) shapeCasts_S256x32_S256x32x1) broadcasts_S256x32x1_S256x32x32))

/-- Their sums over the keys. -/
def blockSum : FVec Ideal S256x32 .f32 :=
  multiReduction (F := Ideal) .add [2] S256x32 (blockExp x0 x1) 0x00000000#32 reduces_S256x32x32_S256x32 (.inl rfl) rfl

/-- The printed weights are the exponentials over their sums. -/
theorem pay2_eq : k0_pay2 (F := Ideal) x0 x1
    = divf (blockExp x0 x1)
        (broadcastTo S256x32x32 (shapeCast S256x32x1 (blockSum x0 x1) shapeCasts_S256x32_S256x32x1) broadcasts_S256x32x1_S256x32x32) := rfl

theorem blockScores_at (b : Fin 256) (i k : Fin 32) :
    blockScores x0 x1 (ix3 b i k) = score (rowOf x0 b) (rowOf x1 b) i k := by
  unfold blockScores
  refine (scores_at _ _ b i k).trans ?_
  unfold score
  refine Finset.sum_congr rfl fun d _ => ?_
  rw [heads_at, pay1_at]

theorem blockMax_at (b : Fin 256) (i : Fin 32) :
    blockMax x0 x1 (ix2 b i) = rowMax (rowOf x0 b) (rowOf x1 b) i := by
  unfold blockMax
  refine (congrArg (max negInf) (keyMax_at (blockScores x0 x1) (.inl rfl) rfl b i)).trans ?_
  unfold rowMax
  have e : (fun k : Fin 32 => blockScores x0 x1 (ix3 b i k)) = fun k => score (rowOf x0 b) (rowOf x1 b) i k :=
    funext fun k => blockScores_at x0 x1 b i k
  rw [e]

theorem blockExp_at (b : Fin 256) (i k : Fin 32) :
    blockExp x0 x1 (ix3 b i k) = expo (rowOf x0 b) (rowOf x1 b) i k := by
  unfold blockExp
  show Ideal.exp (blockScores x0 x1 (ix3 b i k)
    - broadcastTo S256x32x32 (shapeCast S256x32x1 (blockMax x0 x1) shapeCasts_S256x32_S256x32x1) broadcasts_S256x32x1_S256x32x32 (ix3 b i k)) = _
  rw [alongKeys_at, blockScores_at, blockMax_at]
  rfl

theorem blockSum_at (b : Fin 256) (i : Fin 32) :
    blockSum x0 x1 (ix2 b i) = denom (rowOf x0 b) (rowOf x1 b) i := by
  unfold blockSum
  refine (keySum_at (blockExp x0 x1) (.inl rfl) rfl b i).trans ?_
  unfold denom
  exact Finset.sum_congr rfl fun k _ => blockExp_at x0 x1 b i k

/-- The weights at (b, i, k). -/
theorem pay2_at (b : Fin 256) (i k : Fin 32) :
    k0_pay2 (F := Ideal) x0 x1 (ix3 b i k) = weight (rowOf x0 b) (rowOf x1 b) i k := by
  rw [pay2_eq]
  show Ideal.div (blockExp x0 x1 (ix3 b i k))
    (broadcastTo S256x32x32 (shapeCast S256x32x1 (blockSum x0 x1) shapeCasts_S256x32_S256x32x1) broadcasts_S256x32x1_S256x32x32 (ix3 b i k)) = _
  rw [alongKeys_at, blockExp_at, blockSum_at]
  rfl

/-! ## The two stored values at an index -/

/-- The first store, at (b, p): the context of head `p / 16`, feature `p % 16` of row `b`. -/
theorem pay3_at (b : Fin 256) (p : Fin 512) :
    k0_pay3 (F := Ideal) x0 x1 (ix2 b p)
      = context (rowOf x0 b) (rowOf x1 b) ⟨p.val / 16, by have := p.isLt; omega⟩ ⟨p.val % 16, by omega⟩ := by
  have hp := p.isLt
  unfold k0_pay3
  refine (shapeCast_apply _ shapeCasts_S256x32x16_S256x512 (ix2 b p)
    (ix3 b (⟨p.val / 16, by omega⟩ : Fin 32) (⟨p.val % 16, by omega⟩ : Fin 16))
    (by rewrite [Shape.rowMajor_val_two, Shape.rowMajor_val_three]
        show (b.val * 32 + p.val / 16) * 16 + p.val % 16 = b.val * 512 + p.val
        omega)).trans ?_
  refine (mix_at _ _ b _ _).trans ?_
  unfold context
  refine Finset.sum_congr rfl fun k _ => ?_
  show k0_pay2 (F := Ideal) x0 x1 (ix3 b _ k) * k0_pay1 (F := Ideal) x1 (ix3 b k _) = _
  rw [pay2_at, pay1_at]

/-- The second store, at (b, p): the weight of query head `p / 32`, key head `p % 32` of row `b`. -/
theorem pay4_at (b : Fin 256) (p : Fin 1024) :
    k0_pay4 (F := Ideal) x0 x1 (ix2 b p)
      = weight (rowOf x0 b) (rowOf x1 b) ⟨p.val / 32, by have := p.isLt; omega⟩ ⟨p.val % 32, by omega⟩ := by
  have hp := p.isLt
  unfold k0_pay4
  refine (shapeCast_apply _ shapeCasts_S256x32x32_S256x1024 (ix2 b p)
    (ix3 b (⟨p.val / 32, by omega⟩ : Fin 32) (⟨p.val % 32, by omega⟩ : Fin 32))
    (by rewrite [Shape.rowMajor_val_two, Shape.rowMajor_val_three]
        show (b.val * 32 + p.val / 32) * 32 + p.val % 32 = b.val * 1024 + p.val
        omega)).trans ?_
  exact pay2_at x0 x1 b _ _

end Cert.KernelIdeal.Rows

end
-- ==== Proof.KernelArrays.lean ====
/-
  From blocks to arrays: what the kernel program leaves in its two results.

  The grid has 512 points; at point `t` every window's block is block row `t` of its array (rows `256 t` to
  `256 t + 255`, all columns), so row `b` of a block at point `t` is row `256 t + b` of the array. The body's two
  stores at (b, p) only involve row `b` of the two input blocks (`KernelRows`), hence what point `t` writes back to
  the context window is block `t` of `contextFlat` of the two argument arrays, and to the weight window block `t` of
  `weights`. Every row `r` lies in the block of point `r / 256`, so the blocks cover both arrays and the arrays end
  holding `contextFlat` and `weights` of the arguments. After the region the program views the [131072, 512]
  context array as [131072, 32, 16]: that is `contexts` (position `16 i + d` of a row is head `i`, feature `d`).
-/
import proofs.«118392_j59081570125023_1_alg».proof.Proof.Gen.KernelIdeal.Frame
import proofs.«118392_j59081570125023_1_alg».proof.Proof.KernelRows
import Idealize.ShloMosaic.Lib.Pipeline.Value
import Idealize.ShloMosaic.Lib.StableHlo.Run

noncomputable section

namespace Cert.KernelIdeal.Arrays

open Cert.KernelIdeal Cert.KernelIdeal.Gen Cert.KernelIdeal.Rows Cert.RowAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 512 points: at point `t` every window is at block row `t`, block
    column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 512 := lt_of_lt_of_eq t.isLt N_0

/-- The array row that row `b` of a block at point `t` is. -/
def rowAt (t : Fin cfg0.N) (b : Fin 256) : Fin 131072 :=
  ⟨t.val * 256 + b.val, by have := point_lt t; have := b.isLt; omega⟩

/-! ## Rows of the input blocks -/

/-- Row `b` of the query block at point `t` is row `256 t + b` of the query array. -/
theorem row_query (c : Dev nD) (t : Fin cfg0.N) (b : Fin 256) :
    rowOf (iblk m c 0 t) b = rowOf (V m c main_arg0) (rowAt t b) := by
  obtain ⟨e0, e1, -⟩ := idx_facts t
  funext q
  show V m c main_arg0 (((cfg0.win 0).blk t).view.emb (ix2 b q)) = V m c main_arg0 (ix2 (rowAt t b) q)
  have h : ((cfg0.win 0).blk t).view.emb (ix2 b q) = ix2 (rowAt t b) q := by
    funext a; apply Fin.ext
    match a with
    | ⟨0, _⟩ => show win0_0.index t (0 : Fin 2) * 256 + 1 * b.val = t.val * 256 + b.val; omega
    | ⟨1, _⟩ => show win0_0.index t (1 : Fin 2) * 512 + 1 * q.val = q.val; omega
  rw [h]

/-- Row `b` of the value block at point `t` is row `256 t + b` of the value array. -/
theorem row_value (c : Dev nD) (t : Fin cfg0.N) (b : Fin 256) :
    rowOf (iblk m c 1 t) b = rowOf (V m c main_arg1) (rowAt t b) := by
  obtain ⟨-, -, e0, e1, -⟩ := idx_facts t
  funext q
  show V m c main_arg1 (((cfg0.win 1).blk t).view.emb (ix2 b q)) = V m c main_arg1 (ix2 (rowAt t b) q)
  have h : ((cfg0.win 1).blk t).view.emb (ix2 b q) = ix2 (rowAt t b) q := by
    funext a; apply Fin.ext
    match a with
    | ⟨0, _⟩ => show win0_1.index t (0 : Fin 2) * 256 + 1 * b.val = t.val * 256 + b.val; omega
    | ⟨1, _⟩ => show win0_1.index t (1 : Fin 2) * 512 + 1 * q.val = q.val; omega
  rw [h]

/-! ## The whole-array functions at a row and a position -/

theorem contextFlat_at (Q V : (⟨2, ![131072, 512]⟩ : Shape).Idx → EReal) (r : Fin 131072) (p : Fin 512) :
    contextFlat Q V (ix2 r p)
      = context (rowOf Q r) (rowOf V r) ⟨p.val / 16, by have := p.isLt; omega⟩ ⟨p.val % 16, by omega⟩ := rfl

theorem weights_at (Q V : (⟨2, ![131072, 512]⟩ : Shape).Idx → EReal) (r : Fin 131072) (p : Fin 1024) :
    weights Q V (ix2 r p)
      = weight (rowOf Q r) (rowOf V r) ⟨p.val / 32, by have := p.isLt; omega⟩ ⟨p.val % 32, by omega⟩ := rfl

/-! ## The context window (window 2) -/

/-- What point `t` writes back to the context window is block `t` of `contextFlat` of the argument arrays. -/
theorem flushed_context (c : Dev nD) (t : Fin cfg0.N) :
    (dats m 0 c).flushed 2 t
      = ((cfg0.win 2).blk t).view.read (Elt Ideal) (contextFlat (B := 131072) (V m c main_arg0) (V m c main_arg1)) := by
  show (cfg0.win 2).cut (grid0.coords t) ((dats m 0 c).after 2 t) = _
  rw [after0_2]
  unfold out0_2
  rw [View.canon_unit_zero hz]
  simp only [View.ld_unit_zero (S := S256x512) hz]
  obtain ⟨-, -, -, -, e0, e1, -⟩ := idx_facts t
  funext j
  obtain ⟨b, p, rfl⟩ : ∃ (b : Fin 256) (p : Fin 512), j = ix2 b p := ⟨j 0, j 1, eq_ix2 j⟩
  show k0_pay3 (F := Ideal) (iblk m c 0 t) (iblk m c 1 t) (ix2 b p)
    = contextFlat (B := 131072) (V m c main_arg0) (V m c main_arg1) (((cfg0.win 2).blk t).view.emb (ix2 b p))
  have h : ((cfg0.win 2).blk t).view.emb (ix2 b p) = ix2 (rowAt t b) p := by
    funext a; apply Fin.ext
    match a with
    | ⟨0, _⟩ => show win0_2.index t (0 : Fin 2) * 256 + 1 * b.val = t.val * 256 + b.val; omega
    | ⟨1, _⟩ => show win0_2.index t (1 : Fin 2) * 512 + 1 * p.val = p.val; omega
  rw [h, contextFlat_at, pay3_at (iblk m c 0 t) (iblk m c 1 t) b p, row_query, row_value]

theorem mem_blk_context (t : Fin cfg0.N) (i : S131072x512.Idx) :
    i ∈ ((cfg0.win 2).blk t).view.set ↔ ∀ a : Fin 2, win0_2.index t a * S256x512.size a ≤ (i a).val
      ∧ (i a).val < win0_2.index t a * S256x512.size a + S256x512.size a := by
  show i ∈ ((View.whole main_v0_0).slice (win0_2.rect t)).set ↔ _
  rw [View.set_slice_whole, Rect.mem_set_unit]
  exact Iff.rfl

/-- Row `r` of the context array is in the block of point `r / 256`. -/
theorem cover_context (i : S131072x512.Idx) :
    ∃ t : Fin cfg0.N, (cfg0.win 2).flush t = true ∧ i ∈ ((cfg0.win 2).blk t).view.set := by
  have h0 : (i 0).val < 131072 := (i 0).isLt
  have h1 : (i 1).val < 512 := (i 1).isLt
  have hN : cfg0.N = 512 := N_0
  obtain ⟨t, ht⟩ : ∃ t : Fin cfg0.N, t.val = (i 0).val / 256 := ⟨⟨(i 0).val / 256, by rw [hN]; omega⟩, rfl⟩
  obtain ⟨-, -, -, -, e0, e1, -⟩ := idx_facts t
  refine ⟨t, flush0_2 t, ?_⟩
  rw [mem_blk_context]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 512 ≤ (i 1).val ∧ (i 1).val < win0_2.index t (1 : Fin 2) * 512 + 512; omega

/-- The context array after the run. -/
theorem final_context (c : Dev nD) :
    (dats m 0 c).arrAt 2 cfg0.N
      = contextFlat (B := 131072) (m ((c : Thread nD τ).loc main_arg0)) (m ((c : Thread nD τ).loc main_arg1)) :=
  (dats m 0 c).arrAt_eq_of_cover 2 _ (fun t _ => flushed_context m c t) cover_context

/-! ## The weight window (window 3) -/

/-- What point `t` writes back to the weight window is block `t` of `weights` of the argument arrays. -/
theorem flushed_weights (c : Dev nD) (t : Fin cfg0.N) :
    (dats m 0 c).flushed 3 t
      = ((cfg0.win 3).blk t).view.read (Elt Ideal) (weights (B := 131072) (V m c main_arg0) (V m c main_arg1)) := by
  show (cfg0.win 3).cut (grid0.coords t) ((dats m 0 c).after 3 t) = _
  rw [after0_3]
  unfold out0_3
  rw [View.canon_unit_zero hz]
  simp only [View.ld_unit_zero (S := S256x512) hz]
  obtain ⟨-, -, -, -, -, -, e0, e1⟩ := idx_facts t
  funext j
  obtain ⟨b, p, rfl⟩ : ∃ (b : Fin 256) (p : Fin 1024), j = ix2 b p := ⟨j 0, j 1, eq_ix2 j⟩
  show k0_pay4 (F := Ideal) (iblk m c 0 t) (iblk m c 1 t) (ix2 b p)
    = weights (B := 131072) (V m c main_arg0) (V m c main_arg1) (((cfg0.win 3).blk t).view.emb (ix2 b p))
  have h : ((cfg0.win 3).blk t).view.emb (ix2 b p) = ix2 (rowAt t b) p := by
    funext a; apply Fin.ext
    match a with
    | ⟨0, _⟩ => show win0_3.index t (0 : Fin 2) * 256 + 1 * b.val = t.val * 256 + b.val; omega
    | ⟨1, _⟩ => show win0_3.index t (1 : Fin 2) * 1024 + 1 * p.val = p.val; omega
  rw [h, weights_at, pay4_at (iblk m c 0 t) (iblk m c 1 t) b p, row_query, row_value]

theorem mem_blk_weights (t : Fin cfg0.N) (i : S131072x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v0_1).slice (win0_3.rect t)).set ↔ _
  rw [View.set_slice_whole, Rect.mem_set_unit]
  exact Iff.rfl

/-- Row `r` of the weight array is in the block of point `r / 256`. -/
theorem cover_weights (i : S131072x1024.Idx) :
    ∃ t : Fin cfg0.N, (cfg0.win 3).flush t = true ∧ i ∈ ((cfg0.win 3).blk t).view.set := by
  have h0 : (i 0).val < 131072 := (i 0).isLt
  have h1 : (i 1).val < 1024 := (i 1).isLt
  have hN : cfg0.N = 512 := N_0
  obtain ⟨t, ht⟩ : ∃ t : Fin cfg0.N, t.val = (i 0).val / 256 := ⟨⟨(i 0).val / 256, by rw [hN]; omega⟩, rfl⟩
  obtain ⟨-, -, -, -, -, -, e0, e1⟩ := idx_facts t
  refine ⟨t, flush0_3 t, ?_⟩
  rw [mem_blk_weights]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- The weight array after the run. -/
theorem final_weights (c : Dev nD) :
    (dats m 0 c).arrAt 3 cfg0.N
      = weights (B := 131072) (m ((c : Thread nD τ).loc main_arg0)) (m ((c : Thread nD τ).loc main_arg1)) :=
  (dats m 0 c).arrAt_eq_of_cover 3 _ (fun t _ => flushed_weights m c t) cover_weights

/-! ## The view after the region, and the run -/

/-- The program's first result: the context array viewed [131072, 32, 16]. -/
theorem tail_contexts (c : Dev nD) :
    Pipeline.afterTail₀ cfgs (dats m) 0 (V0 m) [hostOps1] c main_v1
      = contexts (B := 131072) (m ((c : Thread nD τ).loc main_arg0)) (m ((c : Thread nD τ).loc main_arg1)) := by
  unfold Pipeline.afterTail₀
  show StableHlo.after hostOps1 _ (Proc.devRef .tc main_v1) = _
  after_results
  rw [Pipeline.withArrays_arr spec0 launch0.win.arr_inj c _ _ 2, final_context]
  exact shapeCast_contextFlat _ _ _

/-- Every weakly fair execution of the kernel program terminates with the first result at `contexts` and the second
    at `weights` of the argument arrays, the arguments unchanged. -/
theorem run : θ_run defs (onTc (τ := τ) (main (F := Ideal))) ⟨m, fun _ => 0, ρ⟩ fun r => ∀ c : Dev nD,
      r.2.mem ((c : Thread nD τ).loc main_v1)
        = contexts (B := 131072) (m ((c : Thread nD τ).loc main_arg0)) (m ((c : Thread nD τ).loc main_arg1))
      ∧ r.2.mem ((c : Thread nD τ).loc main_v0_1)
        = weights (B := 131072) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (Pipeline.mem_restRefs_of main_v1 rfl (by decide))).trans (tail_contexts m c),
      ((h c).1 3).trans (final_weights m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arrays

end
-- ==== Proof.lean ====
/-
  A Pallas attention kernel against its jnp reference, on the extended reals.

  Both programs take a query array and a value array [131072, 512], view every row as 32 heads of 16 features, and
  compute for every row the scores `Σ_d q(16 i + d) · v(16 k + d)`, their softmax over the keys `k` (the maximum
  taken from `-∞`, the exponentials of the shifted scores, their sum, the quotient) and the contexts
  `Σ_k weight i k · v(16 k + d)`; the results are the contexts as [131072, 32, 16] and the weights as [131072, 1024].
  The kernel does it on 512 blocks of 256 rows, rounding the operands of its two products to bf16 on the way
  (on extended reals a change of float format is the identity) and accumulating each product into zero; the reference
  does it on the whole arrays. Row by row the two are the same function of the same row pair (`RowAttention`): the
  reference by `ReferenceRows`, the kernel's body by `KernelRows`, and the kernel's two arrays after the run by
  `KernelArrays`. No law that fails at infinities is used (only that a sum may be re-indexed, that `0 + x = x`, and
  that `max` may be folded in any order), so the precondition on the inputs is never opened.

  The three frames are the generated ones (for the reference, its generated run with the results dropped); the
  idealization rewrote nothing, so there is nothing to preserve.
-/
import proofs.«118392_j59081570125023_1_alg».proof.Defs
import proofs.«118392_j59081570125023_1_alg».proof.Proof.Gen.Kernel
import proofs.«118392_j59081570125023_1_alg».proof.Proof.Gen.Kernel.Skeleton
import proofs.«118392_j59081570125023_1_alg».proof.Proof.Gen.Kernel.Launch
import proofs.«118392_j59081570125023_1_alg».proof.Proof.Gen.Kernel.Points
import proofs.«118392_j59081570125023_1_alg».proof.Proof.Gen.Kernel.Frame
import proofs.«118392_j59081570125023_1_alg».proof.Proof.Gen.KernelIdeal
import proofs.«118392_j59081570125023_1_alg».proof.Proof.Gen.KernelIdeal.Skeleton
import proofs.«118392_j59081570125023_1_alg».proof.Proof.Gen.KernelIdeal.Launch
import proofs.«118392_j59081570125023_1_alg».proof.Proof.Gen.KernelIdeal.Points
import proofs.«118392_j59081570125023_1_alg».proof.Proof.Gen.KernelIdeal.Frame
import proofs.«118392_j59081570125023_1_alg».proof.Proof.Gen.ReferenceIdeal
import proofs.«118392_j59081570125023_1_alg».proof.Proof.Gen.Pre_finite_inputs
import proofs.«118392_j59081570125023_1_alg».proof.Proof.Gen.ReferenceIdeal.Run
import proofs.«118392_j59081570125023_1_alg».proof.Proof.Gen.ReferenceIdeal.Read
import proofs.«118392_j59081570125023_1_alg».proof.Proof.RowAttention
import proofs.«118392_j59081570125023_1_alg».proof.Proof.ReferenceRows
import proofs.«118392_j59081570125023_1_alg».proof.Proof.KernelRows
import proofs.«118392_j59081570125023_1_alg».proof.Proof.KernelArrays
import Idealize.ShloMosaic.Adequacy
import Idealize.ShloMosaic.Init

noncomputable section

namespace Cert.Proof

open Idealize.ShloMosaic Idealize.ShloMosaic.TcCoe Idealize.SL.Sem Cert.RowAttention

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, the kernel program ends with `contexts` and `weights` of its argument
    arrays (`KernelArrays.run`), and the reference with its two stages %14 and %15 of its own (the generated run),
    which are `contexts` and `weights` of the same arrays (`ReferenceRows`). -/
theorem algebraic : Cert.algebraic_KernelIdeal_ReferenceIdeal := by
  intro m ρ m' ρ' _ hagree
  refine ⟨fun c => contexts (B := 131072) (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => weights (B := 131072) (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v14_eq, Cert.ReferenceIdeal.RefRows.contexts_eq,
      (hagree c).1, (hagree c).2]
  · rw [(h c).2.1, Cert.ReferenceIdeal.Read.val_main_v15_eq, Cert.ReferenceIdeal.RefRows.weights_eq,
      (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
